-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S10000x512 .f32) (main_arg1 : FVec F S512x512 .f32) (main_arg2 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S10000x512 : Shape := ⟨2, ![10000, 512]⟩
abbrev S512x512 : Shape := ⟨2, ![512, 512]⟩
abbrev S512 : Shape := ⟨1, ![512]⟩
abbrev S1x512 : Shape := ⟨2, ![1, 512]⟩
abbrev S5000x512 : Shape := ⟨2, ![5000, 512]⟩

abbrev nBuf : Space → Nat
  | .hbm => 5
  | .vmem => 8
  | .smem => 0
  | _ => 0

abbrev bufTy : (tb : Table) → Fin (tcTables nBuf tb) → BufTy
  | .hbm, ⟨0, _⟩ => ⟨S10000x512, .f32⟩
  | .hbm, ⟨1, _⟩ => ⟨S512x512, .f32⟩
  | .hbm, ⟨2, _⟩ => ⟨S512, .f32⟩
  | .hbm, ⟨3, _⟩ => ⟨S1x512, .f32⟩
  | .hbm, ⟨4, _⟩ => ⟨S10000x512, .f32⟩
  | .local _ .vmem, ⟨0, _⟩ => ⟨S5000x512, .f32⟩
  | .local _ .vmem, ⟨1, _⟩ => ⟨S5000x512, .f32⟩
  | .local _ .vmem, ⟨2, _⟩ => ⟨S512x512, .f32⟩
  | .local _ .vmem, ⟨3, _⟩ => ⟨S1x512, .f32⟩
  | .local _ .vmem, ⟨4, _⟩ => ⟨S5000x512, .f32⟩
  | .local _ .vmem, ⟨5, _⟩ => ⟨S5000x512, .f32⟩
  | .local _ .vmem, ⟨6, _⟩ => ⟨S512x512, .f32⟩
  | .local _ .vmem, ⟨7, _⟩ => ⟨S1x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512_S1x512 : S512.ShapeCasts S1x512
  iota_S512x512_d0_w32 : S512x512.Iotas .tc 32 [0]
  iota_S512x512_d1_w32 : S512x512.Iotas .tc 32 [1]
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S5000x512_S5000x512_0_0 : ∀ a, (![0, 0] : Fin 2 → Nat) a + S5000x512.size a ≤ S5000x512.size a
  h_S5000x512 : 0 < S5000x512.numel
  broadcasts_S1x512_S5000x512 : S1x512.Broadcasts S5000x512
  dot_S5000x512_S512x512_S5000x512_1_1_0_0_n_n_wf : DotDims.WF S5000x512 S512x512 S5000x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S10000x512.size a
  hwx0_0 : ∀ i : grid0.Coords, EltTy.bits .f32 = 32 ∨ (Rect.block (s := S10000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x512.size a ≤ S10000x512.size a
  hwx0_3 : ∀ i : grid0.Coords, EltTy.bits .f32 = 32 ∨ (Rect.block (s := S10000x512) S5000x512.size (cc0_transform_3 i) (hinb0_3 i)).WholeWords (EltTy.packing .f32)

variable [Facts₀]

def dot_S5000x512_S512x512_S5000x512_1_1_0_0_n_n : DotDims S5000x512 S512x512 S5000x512 where
  lhsContracting := [1]
  rhsContracting := [1]
  lhsNonContracting := [0]
  rhsNonContracting := [0]
  lhsBatch := []
  rhsBatch := []
  wf := dot_S5000x512_S512x512_S5000x512_1_1_0_0_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x512 : Shape := ⟨2, ![10000, 512]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S10000x512, .f32⟩
  | .hbm, ⟨5, _⟩ => ⟨S1x512, .f32⟩
  | .hbm, ⟨6, _⟩ => ⟨S10000x512, .f32⟩
  | .hbm, ⟨7, _⟩ => ⟨S10000x512, .f32⟩
  | .hbm, ⟨8, _⟩ => ⟨S_, .f32⟩
  | .hbm, ⟨9, _⟩ => ⟨S10000x512, .f32⟩
  | .hbm, ⟨10, _⟩ => ⟨S10000x512, .f32⟩
  | .hbm, ⟨11, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  dot_S10000x512_S512x512_S10000x512_1_0_0_1_n_n_wf : DotDims.WF S10000x512 S512x512 S10000x512 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.ResidualFold.lean ====
/-
  The algebra that joins the two programs, over the reals and then over the extended reals.

  The kernel folds the residual into the contraction: with the matrix M[j,k] = W[j,k]·c + δ(j,k)
  (δ the Kronecker symbol) and the row b2[j] = b[j]·c it forms  Σ_k x[i,k]·M[j,k] + b2[j].
  The reference forms  x[i,j] + c·(Σ_k x[i,k]·W[j,k] + b[j]).
  For REAL data the two agree: the sum splits by distributivity, the Kronecker part of it picks out x[i,j],
  and the factor c moves out of the remaining sum.  Distributivity fails at the infinities of the extended
  reals, so the law is stated for extended reals that are coercions of reals — which is what the finiteness
  of the inputs provides.
-/
import Mathlib

noncomputable section

namespace ResidualFold

open Finset

/-- The coercion of the reals into the extended reals commutes with finite sums. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The law over the reals: a row against the folded matrix plus the folded bias is the residual form. -/
theorem fold_real {n : ℕ} (x w : Fin n → ℝ) (c bj : ℝ) (j : Fin n) :
    (∑ k, x k * (w k * c + (if j = k then (1 : ℝ) else 0))) + bj * c
      = x j + c * ((∑ k, x k * w k) + bj) := by
  have h1 : ∀ k, x k * (w k * c + (if j = k then (1 : ℝ) else 0))
      = c * (x k * w k) + (if j = k then x k else 0) := by
    intro k; split_ifs <;> ring
  simp only [h1, Finset.sum_add_distrib, Finset.sum_ite_eq, Finset.mem_univ, if_true, ← Finset.mul_sum]
  ring

/-- The same law over the extended reals, for data that are reals. -/
theorem fold_ereal {n : ℕ} (x w : Fin n → ℝ) (c bj : ℝ) (j : Fin n) :
    (∑ k, (x k : EReal) * ((w k : EReal) * (c : EReal) + (if j = k then (1 : EReal) else 0))) + (bj : EReal) * (c : EReal)
      = (x j : EReal) + (c : EReal) * ((∑ k, (x k : EReal) * (w k : EReal)) + (bj : EReal)) := by
  have hδ : ∀ k, (if j = k then (1 : EReal) else 0) = (((if j = k then (1 : ℝ) else 0) : ℝ) : EReal) := by
    intro k; split_ifs <;> simp
  simp only [hδ, ← EReal.coe_mul, ← EReal.coe_add, ← coe_sum]
  exact congrArg _ (fold_real x w c bj j)

end ResidualFold

end
-- ==== Proof.Forms.lean ====
/-
  The two programs' results as whole-array functions of the arguments, on the extended reals, and the law that makes
  them one function for real data.

  With c the scale (the f32 word of 0.1, the SAME word in both programs), x of shape [10000,512], W of shape
  [512,512] and b of shape [512]:
    folded form    (i,j) ↦ Σ_k x[i,k]·(W[j,k]·c + δ(j,k)) + b[j]·c      — the residual folded into the contraction;
    residual form  (i,j) ↦ x[i,j] + c·(Σ_k x[i,k]·W[j,k] + b[j])         — the linear layer added to its input.
  They agree wherever every entry of x, W and b is a real number (distributivity, which the infinities break).
-/
import proofs.«121360_g12850542150406_cont_week2b_740_12_alg».proof.Proof.ResidualFold
import Idealize.ShloMosaic.PureOps.Ideal
import Idealize.ShloMosaic.Lib.ValueIdx

noncomputable section

open Idealize.ShloMosaic Idealize.ShloMosaic.ValueIdx

namespace Cert.Residual

/-- The scale c both programs multiply by: the f32 word of 0.1 as the extended real it denotes. -/
def scale : EReal := Ideal.ofBits .f32 0x3DCCCCCD#32

/-- The scale is a real number (the word is a finite pattern). -/
theorem scale_real : ∃ r : ℝ, scale = (r : EReal) := by
  unfold scale
  simp [Ideal.ofBits, Ideal.ieee, -EReal.coe_mul]

/-- The f32 word of 1.0 denotes 1. -/
theorem one_word : Ideal.ofBits .f32 0x3F800000#32 = 1 := by
  simp [Ideal.ofBits, Ideal.ieee, -EReal.coe_mul]; norm_num

/-- The folded form at row r and column q. -/
def foldedAt (x : (⟨2, ![10000, 512]⟩ : Shape).Idx → EReal) (W : (⟨2, ![512, 512]⟩ : Shape).Idx → EReal)
    (b : (⟨1, ![512]⟩ : Shape).Idx → EReal) (r : Fin 10000) (q : Fin 512) : EReal :=
  (∑ k : Fin 512, x (ix2 r k) * (W (ix2 q k) * scale + (if q = k then (1 : EReal) else 0))) + b (ix1 q) * scale

/-- The residual form at row r and column q. -/
def residualAt (x : (⟨2, ![10000, 512]⟩ : Shape).Idx → EReal) (W : (⟨2, ![512, 512]⟩ : Shape).Idx → EReal)
    (b : (⟨1, ![512]⟩ : Shape).Idx → EReal) (r : Fin 10000) (q : Fin 512) : EReal :=
  x (ix2 r q) + scale * ((∑ k : Fin 512, x (ix2 r k) * W (ix2 q k)) + b (ix1 q))

/-- The residual folded into the contraction, as a whole array. -/
def foldedForm (x : (⟨2, ![10000, 512]⟩ : Shape).Idx → EReal) (W : (⟨2, ![512, 512]⟩ : Shape).Idx → EReal)
    (b : (⟨1, ![512]⟩ : Shape).Idx → EReal) : (⟨2, ![10000, 512]⟩ : Shape).Idx → EReal :=
  fun i => foldedAt x W b (i 0) (i 1)

/-- The linear layer, scaled, added to its input, as a whole array. -/
def residualForm (x : (⟨2, ![10000, 512]⟩ : Shape).Idx → EReal) (W : (⟨2, ![512, 512]⟩ : Shape).Idx → EReal)
    (b : (⟨1, ![512]⟩ : Shape).Idx → EReal) : (⟨2, ![10000, 512]⟩ : Shape).Idx → EReal :=
  fun i => residualAt x W b (i 0) (i 1)

/-- For real data the two forms are one function. -/
theorem folded_eq_residual (x : (⟨2, ![10000, 512]⟩ : Shape).Idx → EReal) (W : (⟨2, ![512, 512]⟩ : Shape).Idx → EReal)
    (b : (⟨1, ![512]⟩ : Shape).Idx → EReal)
    (hx : ∀ i, ∃ r : ℝ, x i = (r : EReal)) (hW : ∀ i, ∃ r : ℝ, W i = (r : EReal)) (hb : ∀ i, ∃ r : ℝ, b i = (r : EReal)) :
    foldedForm x W b = residualForm x W b := by
  funext i
  choose xr hxr using hx
  choose wr hwr using hW
  choose br hbr using hb
  obtain ⟨cr, hc⟩ := scale_real
  unfold foldedForm residualForm foldedAt residualAt
  simp only [hxr, hwr, hbr, hc]
  exact ResidualFold.fold_ereal (fun k => xr (ix2 (i 0) k)) (fun k => wr (ix2 (i 1) k)) cr (br (ix1 (i 1))) (i 1)

end Cert.Residual

end
-- ==== Proof.FiniteInputs.lean ====
/-
  What the precondition says: every entry of the three argument arrays is a real number.

  The precondition compares the absolute value of every entry with +inf (the f32 word 0x7F800000) and takes the
  conjunction over each array, then over the three arrays.  An extended real whose absolute value max(x, −x) is
  below +inf is neither infinity, so it is the coercion of a real.
-/
import proofs.«121360_g12850542150406_cont_week2b_740_12_alg».proof.Pre_finite_inputs
import proofs.«121360_g12850542150406_cont_week2b_740_12_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

open Idealize.ShloMosaic

namespace Cert.FiniteInputs

open Cert.Pre_finite_inputs

/-- The scalar shape has one index. -/
instance : Subsingleton S_.Idx := ⟨fun a b => funext fun d => d.elim0⟩

/-- The f32 word 0x7F800000 denotes +inf. -/
theorem inf_word : Ideal.ofBits .f32 0x7F800000#32 = ⊤ := by
  simp [Ideal.ofBits, Ideal.ieee]

/-- An extended real whose absolute value compares below +inf is a real. -/
theorem real_of_abs_lt (x : EReal) (h : Ideal.cmp .olt (max x (-x)) (Ideal.ofBits .f32 0x7F800000#32) = 1#1) :
    ∃ r : ℝ, x = (r : EReal) := by
  rw [inf_word] at h
  have h' : BitVec.ofBool (decide (max x (-x) < ⊤)) = 1#1 := h
  have hlt : max x (-x) < ⊤ := by
    by_contra hn
    rw [decide_eq_false hn] at h'
    exact absurd h' (by decide)
  induction x using EReal.rec with
  | bot => simp at hlt
  | coe r => exact ⟨r, rfl⟩
  | top => simp at hlt

/-- Under the precondition every entry of x, W and b is a real. -/
theorem reals_of_pre (x : FVec Ideal S10000x512 .f32) (W : FVec Ideal S512x512 .f32) (b : FVec Ideal S512 .f32)
    (h : fn (F := Ideal) x W b = fun _ => 1#1) :
    (∀ i, ∃ r : ℝ, x i = (r : EReal)) ∧ (∀ i, ∃ r : ℝ, W i = (r : EReal)) ∧ (∀ i, ∃ r : ℝ, b i = (r : EReal)) := by
  have h0 := congrFun h ValueIdx.ix0
  dsimp only [fn] at h0
  obtain ⟨h01, h2⟩ := IntOp.andi_eq_one.mp h0
  obtain ⟨h00, h1⟩ := IntOp.andi_eq_one.mp h01
  exact ⟨fun i => real_of_abs_lt _ (Host.reduce_andi_all _ _ _ _ _ h00 i),
    fun i => real_of_abs_lt _ (Host.reduce_andi_all _ _ _ _ _ h1 i),
    fun i => real_of_abs_lt _ (Host.reduce_andi_all _ _ _ _ _ h2 i)⟩

end Cert.FiniteInputs

end
-- ==== Proof.CaseContents.lean ====
/-
  What each control case of the body leaves behind, as a term of what it loaded.

  At the grid's first point the body builds the folded matrix from the weight block and the folded bias row
  from the bias block, stores both into the two scratch buffers, and then multiplies the row block by the matrix it has
  just stored and adds the stored bias row.  At any later point it only multiplies and adds, reading the two scratch
  buffers as the point before left them.  The three stores are whole-buffer stores, so each buffer ends holding exactly
  the stored value.
-/
import proofs.«121360_g12850542150406_cont_week2b_740_12_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.CaseContents

open Cert.KernelIdeal Cert.KernelIdeal.Gen

variable {F : FTy → Type} [FloatOps F]

theorem hz : (![0, 0] : Fin 2 → Nat) = fun _ => 0 := funext fun a => by fin_cases a <;> rfl

/-- First point: the matrix scratch ends holding the folded matrix built from the weight block. -/
theorem matrix_first (c : Dev nD) (i : grid0.Coords) (arg1 : Memref sig .tc .vmem S5000x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S5000x512 .f32) (harg4 : arg4.IsWhole) (arg5 : Memref sig .tc .vmem S512x512 .f32) (harg5 : arg5.IsWhole) (arg6 : Memref sig .tc .vmem S1x512 .f32) (harg6 : arg6.IsWhole) (hc0 : cond0_0 i)
    (x0 : Vec F S5000x512 .f32) (x1 : Vec F S512x512 .f32) (x2 : Vec F S1x512 .f32) :
    sout0_A_0 c i arg1 harg1 arg2 harg2 arg3 harg3 arg4 harg4 arg5 harg5 arg6 harg6 hc0 x0 x1 x2 = k0_pay1 x1 := by
  unfold sout0_A_0
  rw [View.read_writes_eq_canon _ _ _ (scover0_A_0 c i arg1 harg1 arg2 harg2 arg3 harg3 arg4 harg4 arg5 harg5 arg6 harg6 hc0 x0 x1 x2)]
  unfold kernelRun0_A
  dsimp only
  try sl_unfold_words
  rw [View.canon_unit_zero hz]
  simp only [View.readAt_eq_ld, harg2.read_unread, View.ld_unit_zero (S := S512x512) hz]

/-- First point: the bias scratch ends holding the folded bias row built from the bias block. -/
theorem bias_first (c : Dev nD) (i : grid0.Coords) (arg1 : Memref sig .tc .vmem S5000x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S5000x512 .f32) (harg4 : arg4.IsWhole) (arg5 : Memref sig .tc .vmem S512x512 .f32) (harg5 : arg5.IsWhole) (arg6 : Memref sig .tc .vmem S1x512 .f32) (harg6 : arg6.IsWhole) (hc0 : cond0_0 i)
    (x0 : Vec F S5000x512 .f32) (x1 : Vec F S512x512 .f32) (x2 : Vec F S1x512 .f32) :
    sout0_A_1 c i arg1 harg1 arg2 harg2 arg3 harg3 arg4 harg4 arg5 harg5 arg6 harg6 hc0 x0 x1 x2 = k0_pay2 x2 := by
  unfold sout0_A_1
  rw [View.read_writes_eq_canon _ _ _ (scover0_A_1 c i arg1 harg1 arg2 harg2 arg3 harg3 arg4 harg4 arg5 harg5 arg6 harg6 hc0 x0 x1 x2)]
  unfold kernelRun0_A
  dsimp only
  try sl_unfold_words
  rw [View.canon_unit_zero hz]
  simp only [View.readAt_eq_ld, harg3.read_unread, View.ld_unit_zero (S := S1x512) hz]

/-- First point: the output block is the row block against the matrix and bias row the point has just stored. -/
theorem out_first (c : Dev nD) (i : grid0.Coords) (arg1 : Memref sig .tc .vmem S5000x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S5000x512 .f32) (harg4 : arg4.IsWhole) (arg5 : Memref sig .tc .vmem S512x512 .f32) (harg5 : arg5.IsWhole) (arg6 : Memref sig .tc .vmem S1x512 .f32) (harg6 : arg6.IsWhole) (hc0 : cond0_0 i)
    (x0 : Vec F S5000x512 .f32) (x1 : Vec F S512x512 .f32) (x2 : Vec F S1x512 .f32) :
    out0_A_3 c i arg1 harg1 arg2 harg2 arg3 harg3 arg4 harg4 arg5 harg5 arg6 harg6 hc0 x0 x1 x2 = k0_pay3 x0 (k0_pay1 x1) (k0_pay2 x2) := by
  unfold out0_A_3
  rw [View.read_writes_eq_canon _ _ _ (cover0_A_3 c i arg1 harg1 arg2 harg2 arg3 harg3 arg4 harg4 arg5 harg5 arg6 harg6 hc0 x0 x1 x2)]
  unfold kernelRun0_A
  dsimp only
  try sl_unfold_words
  rw [View.canon_unit_zero hz, View.readCov_unit_zero (S := S512x512) _ hz, View.readCov_unit_zero (S := S1x512) _ hz]
  simp only [View.readAt_eq_ld, harg1.read_unread, harg2.read_unread, harg3.read_unread, View.ld_unit_zero (S := S5000x512) hz, View.ld_unit_zero (S := S512x512) hz, View.ld_unit_zero (S := S1x512) hz]

/-- A later point: the output block is the row block against what the two scratch buffers held on entry. -/
theorem out_later (c : Dev nD) (i : grid0.Coords) (arg1 : Memref sig .tc .vmem S5000x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S5000x512 .f32) (harg4 : arg4.IsWhole) (arg5 : Memref sig .tc .vmem S512x512 .f32) (harg5 : arg5.IsWhole) (arg6 : Memref sig .tc .vmem S1x512 .f32) (harg6 : arg6.IsWhole) (hc0 : ¬cond0_0 i)
    (x0 : Vec F S5000x512 .f32) (x1 : Vec F S512x512 .f32) (x2 : Vec F S1x512 .f32) (xs0 : Vec F S512x512 .f32) (xs1 : Vec F S1x512 .f32) :
    out0_B_3 c i arg1 harg1 arg2 harg2 arg3 harg3 arg4 harg4 arg5 harg5 arg6 harg6 hc0 x0 x1 x2 xs0 xs1 = k0_pay3 x0 xs0 xs1 := by
  unfold out0_B_3
  rw [View.read_writes_eq_canon _ _ _ (cover0_B_3 c i arg1 harg1 arg2 harg2 arg3 harg3 arg4 harg4 arg5 harg5 arg6 harg6 hc0 x0 x1 x2 xs0 xs1)]
  unfold kernelRun0_B
  dsimp only
  try sl_unfold_words
  rw [View.canon_unit_zero hz]
  simp only [View.readAt_eq_ld, harg1.read_unread, harg5.read_unread, harg6.read_unread, View.ld_unit_zero (S := S5000x512) hz, View.ld_unit_zero (S := S512x512) hz, View.ld_unit_zero (S := S1x512) hz]

end Cert.KernelIdeal.CaseContents

end
-- ==== Proof.PointContents.lean ====
/-
  What the output's staging buffer and the two scratch buffers hold after each grid point.

  The grid has two points.  The first builds the folded matrix and the folded bias row from the weight and bias blocks
  and stores them in the scratch buffers; the second stores nothing there.  So after EITHER point the scratch buffers
  hold the matrix and the row the first point built, and the output buffer holds that point's row block multiplied
  against them.
-/
import proofs.«121360_g12850542150406_cont_week2b_740_12_alg».proof.Proof.Gen.KernelIdeal.Frame
import proofs.«121360_g12850542150406_cont_week2b_740_12_alg».proof.Proof.CaseContents

set_option maxRecDepth 16384

noncomputable section

open Idealize.ShloMosaic Idealize.ShloMosaic.TcCoe Idealize.SL.Sem

namespace Cert.KernelIdeal.PointContents

open Cert.KernelIdeal Cert.KernelIdeal.Gen

variable {F : FTy → Type} [FloatOps F]
variable (m : (ℓ : Loc nD τ sig) → Buf (Elt F) ℓ)

/-- The matrix the first point stores: the body's fold of the weight block that point is handed. -/
def storedMatrix (c : Dev nD) : Vec F S512x512 .f32 := k0_pay1 (iblk m c 1 t0_0)

/-- The row the first point stores: the body's fold of the bias block that point is handed. -/
def storedBias (c : Dev nD) : Vec F S1x512 .f32 := k0_pay2 (iblk m c 2 t0_0)

/-- After the first point. -/
theorem after_first (c : Dev nD) (h0 : 0 < cfg0.N) :
    outsAt0 m c 0 h0 = (k0_pay3 (iblk m c 0 ⟨0, h0⟩) (storedMatrix m c) (storedBias m c), storedMatrix m c, storedBias m c) := by
  refine (outsAt0_A m c ⟨0, h0⟩ (Nat.zero_mod 2)).trans ?_
  rw [CaseContents.out_first, CaseContents.matrix_first, CaseContents.bias_first]
  rfl

/-- After the second point: the scratch buffers are as the first point left them. -/
theorem after_second (c : Dev nD) (h1 : 1 < cfg0.N) :
    outsAt0 m c 1 h1 = (k0_pay3 (iblk m c 0 ⟨1, h1⟩) (storedMatrix m c) (storedBias m c), storedMatrix m c, storedBias m c) := by
  refine (outsAt0_B m c ⟨1, h1⟩ (show ¬(1 % 2 = 0) by decide)).trans ?_
  rw [CaseContents.out_later]
  unfold sout0_B_0 sout0_B_1
  show (k0_pay3 (iblk m c 0 ⟨1, h1⟩) (outsAt0 m c 0 _).2.1 (outsAt0 m c 0 _).2.2, (outsAt0 m c 0 _).2.1, (outsAt0 m c 0 _).2.2) = _
  rw [after_first m c]

/-- After any point. -/
theorem after_point (c : Dev nD) (t : Fin cfg0.N) :
    outsAt0 m c t.val t.isLt = (k0_pay3 (iblk m c 0 t) (storedMatrix m c) (storedBias m c), storedMatrix m c, storedBias m c) := by
  obtain ⟨n, hn⟩ := t
  have hN : n < 2 := lt_of_lt_of_eq hn (show cfg0.N = 2 from N_0)
  match n, hn, hN with
  | 0, hn, _ => exact after_first m c hn
  | 1, hn, _ => exact after_second m c hn
  | n + 2, _, hN => omega

end Cert.KernelIdeal.PointContents

end
-- ==== Proof.LibRowsDot.lean ====
/-
  A product of rows: for matrices `l` of M rows and `r` of N rows, both of width K, the contraction of the second
  axis of each — the dimension numbers ⟨[1], [1], [0], [0], [], []⟩ of `DotDims.transposedRhs` — read at the output
  index (a, b) is the sum over k < K of l[a, k] · r[b, k]. The contraction index of the dimension record is a
  one-coordinate tuple; the sum is re-indexed through that coordinate.
-/
import Idealize.ShloMosaic.PureOps.Ideal.Laws
import Idealize.ShloMosaic.Lib.ValueIdx

noncomputable section

namespace Cert.RowsDot

open Idealize.ShloMosaic Idealize.ShloMosaic.ValueIdx

/-- The left operand's row coordinate is the output's row. -/
theorem lhs_row {M K N : Nat} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row coordinate is the output's column. -/
theorem rhs_row {M K N : Nat} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The left operand's index at output (a, b) and contraction coordinate k is (a, k). -/
theorem lhs_at {M K N : Nat} (a : Fin M) (b : Fin N) (k : Fin K) :
    (DotDims.transposedRhs M K N).lhsIdx (ix2 a b) ((contrEquiv1 (DotDims.transposedRhs M K N) K rfl rfl).symm k) = ix2 a k := by
  have hk := contrEquiv1_symm_val (DotDims.transposedRhs M K N) K rfl rfl k
  funext x
  apply Fin.ext
  match x with
  | ⟨0, _⟩ => exact lhs_row _ _
  | ⟨1, _⟩ => exact ((DotDims.transposedRhs M K N).lhsIdx_val_of_single rfl _ _).trans hk

/-- The right operand's index there is (b, k). -/
theorem rhs_at {M K N : Nat} (a : Fin M) (b : Fin N) (k : Fin K) :
    (DotDims.transposedRhs M K N).rhsIdx (ix2 a b) ((contrEquiv1 (DotDims.transposedRhs M K N) K rfl rfl).symm k) = ix2 b k := by
  have hk := contrEquiv1_symm_val (DotDims.transposedRhs M K N) K rfl rfl k
  funext x
  apply Fin.ext
  match x with
  | ⟨0, _⟩ => exact rhs_row _ _
  | ⟨1, _⟩ => exact ((DotDims.transposedRhs M K N).rhsIdx_val_of_single rfl _ _).trans hk

/-- The contraction's sum at (a, b) is the sum over the shared width of the two rows' products. -/
theorem sum_at {M K N : Nat} (l : (⟨2, ![M, K]⟩ : Shape).Idx → EReal) (r : (⟨2, ![N, K]⟩ : Shape).Idx → EReal)
    (a : Fin M) (b : Fin N) :
    ∑ q : (DotDims.transposedRhs M K N).contr.Idx,
        l ((DotDims.transposedRhs M K N).lhsIdx (ix2 a b) q) * r ((DotDims.transposedRhs M K N).rhsIdx (ix2 a b) q)
      = ∑ k : Fin K, l (ix2 a k) * r (ix2 b k) := by
  rw [← Equiv.sum_comp (contrEquiv1 (DotDims.transposedRhs M K N) K rfl rfl).symm]
  refine Finset.sum_congr rfl fun k _ => ?_
  rw [lhs_at, rhs_at]

/-- A matrix unit's product into a zero accumulator, at the ideal values: that sum. -/
theorem matmul_zero_at {M K N : Nat} {φ₁ φ₂ : FTy} (l : FVec Ideal ⟨2, ![M, K]⟩ φ₁) (r : FVec Ideal ⟨2, ![N, K]⟩ φ₂)
    (a : Fin M) (b : Fin N) :
    FloatOps.matmul (DotDims.transposedRhs M K N) none l r (constant ⟨2, ![M, N]⟩ .f32 0x00000000#32) (ix2 a b)
      = ∑ k : Fin K, l (ix2 a k) * r (ix2 b k) :=
  (Ideal.matmul_constant_zero_apply _ none l r (ix2 a b)).trans (sum_at l r a b)

/-- The same for any dimension record that IS that one (a printed program names its own). -/
theorem matmul_zero_at_of_eq {M K N : Nat} {φ₁ φ₂ : FTy} (D : DotDims ⟨2, ![M, K]⟩ ⟨2, ![N, K]⟩ ⟨2, ![M, N]⟩)
    (hD : D = DotDims.transposedRhs M K N) (l : FVec Ideal ⟨2, ![M, K]⟩ φ₁) (r : FVec Ideal ⟨2, ![N, K]⟩ φ₂)
    (a : Fin M) (b : Fin N) :
    FloatOps.matmul D none l r (constant ⟨2, ![M, N]⟩ .f32 0x00000000#32) (ix2 a b)
      = ∑ k : Fin K, l (ix2 a k) * r (ix2 b k) := by
  subst hD
  exact matmul_zero_at l r a b

end Cert.RowsDot

end
-- ==== Proof.StoredAt.lean ====
/-
  The body's three stored values read at an index, on the extended reals.

  The folded matrix at (j, k) is W[j,k]·c plus the Kronecker symbol of j and k (the body compares a row iota
  with a column iota and selects 1 or 0); the folded bias row at (0, q) is b[0,q]·c; and the output block at (p, q)
  is the sum over k of x[p,k]·M[q,k] — a product of rows, the matrix contracted along its second axis — plus the
  bias row's entry q, the row being spread over all rows of the block.
-/
import proofs.«121360_g12850542150406_cont_week2b_740_12_alg».proof.Proof.Gen.KernelIdeal.Skeleton
import proofs.«121360_g12850542150406_cont_week2b_740_12_alg».proof.Proof.LibRowsDot
import proofs.«121360_g12850542150406_cont_week2b_740_12_alg».proof.Proof.Forms
import Idealize.ShloMosaic.Lib.Pipeline.Value
import Idealize.ShloMosaic.Lib.ValueIdx
import Idealize.ShloMosaic.Lib.Affine
import Idealize.ShloMosaic.PureOps.Ideal.Laws

noncomputable section

open Idealize.ShloMosaic Idealize.ShloMosaic.ValueIdx

namespace Cert.KernelIdeal.StoredAt

open Cert.KernelIdeal Cert.KernelIdeal.Gen Cert.Residual

/-- Two coordinates below 512 are equal exactly when their 32-bit words are. -/
theorem word_eq_iff (j k : Fin 512) : BitVec.ofNat 32 j.val = BitVec.ofNat 32 k.val ↔ j = k := by
  constructor
  · intro h
    have e := congrArg BitVec.toNat h
    simp only [BitVec.toNat_ofNat] at e
    have hj := j.isLt
    have hk := k.isLt
    apply Fin.ext
    omega
  · rintro rfl; rfl

/-- A select on the comparison of two coordinates' words is the `if` on the coordinates. -/
theorem select_coords {α : Type} (j k : Fin 512) (A B : α) :
    Scalar.select (IntOp.cmpi .eq (BitVec.ofNat 32 j.val) (BitVec.ofNat 32 k.val)) A B = if j = k then A else B := by
  by_cases h : j = k
  · rw [if_pos h, IntOp.cmpi_eq.mpr ((word_eq_iff j k).mpr h), select_one]
  · rw [if_neg h, eq_zero_of_ne_one (fun hc => h ((word_eq_iff j k).mp (IntOp.cmpi_eq.mp hc))), select_zero]

/-- The folded matrix at (j, k): the weight scaled, plus 1 on the diagonal. -/
theorem matrix_at (W : Vec Ideal S512x512 .f32) (j k : Fin 512) :
    k0_pay1 (F := Ideal) W (ix2 j k) = W (ix2 j k) * scale + (if j = k then (1 : EReal) else 0) := by
  unfold k0_pay1
  rw [shapeCast_self]
  show W (ix2 j k) * scale + Scalar.select (IntOp.cmpi .eq (iota .tc S512x512 32 [0] iota_S512x512_d0_w32 (ix2 j k)) (iota .tc S512x512 32 [1] iota_S512x512_d1_w32 (ix2 j k))) (Ideal.ofBits .f32 0x3F800000#32) (Ideal.ofBits .f32 0x00000000#32) = _
  rw [iota_single_apply, iota_single_apply]
  show W (ix2 j k) * scale + Scalar.select (IntOp.cmpi .eq (BitVec.ofNat 32 j.val) (BitVec.ofNat 32 k.val)) _ _ = _
  rw [select_coords, one_word, Ideal.ofBits_zero_f32]

/-- The folded bias row at (0, q): the bias entry scaled. -/
theorem bias_at (v : Vec Ideal S1x512 .f32) (z : Fin 1) (q : Fin 512) :
    k0_pay2 (F := Ideal) v (ix2 z q) = v (ix2 z q) * scale := by
  unfold k0_pay2
  rw [shapeCast_self, shapeCast_self]
  rfl

/-- The bias row spread over the rows of a block, at (p, q): the row's entry q. -/
theorem spread_at (v : Vec Ideal S1x512 .f32) (p : Fin 5000) (q : Fin 512) :
    broadcastTo S5000x512 v broadcasts_S1x512_S5000x512 (ix2 p q) = v (ix2 (0 : Fin 1) q) := by
  refine broadcastTo_apply v broadcasts_S1x512_S5000x512 (ix2 p q) (ix2 (0 : Fin 1) q) fun a => ?_
  match a with
  | ⟨0, _⟩ => show 0 = if (1 : Nat) = 1 then 0 else _; rw [if_pos rfl]
  | ⟨1, _⟩ => show q.val = if (512 : Nat) = 1 then 0 else _; rw [if_neg (by decide)]; rfl

/-- The output block at (p, q): the row p of the block against the row q of the matrix, plus the bias entry q. -/
theorem block_at (x : Vec Ideal S5000x512 .f32) (M : Vec Ideal S512x512 .f32) (v : Vec Ideal S1x512 .f32) (p : Fin 5000) (q : Fin 512) :
    k0_pay3 (F := Ideal) x M v (ix2 p q) = (∑ k : Fin 512, x (ix2 p k) * M (ix2 q k)) + v (ix2 (0 : Fin 1) q) := by
  unfold k0_pay3
  refine (addf_apply _ _ (ix2 p q)).trans ?_
  rw [spread_at]
  exact congrArg (· + v (ix2 (0 : Fin 1) q)) (Cert.RowsDot.matmul_zero_at_of_eq (M := 5000) (K := 512) (N := 512) dot_S5000x512_S512x512_S5000x512_1_1_0_0_n_n rfl x M p q)

end Cert.KernelIdeal.StoredAt

end
-- ==== Proof.WholeArray.lean ====
/-
  From blocks to the whole array: after the run the kernel's result array is the folded form of the arguments.

  Point t of the grid is handed rows 5000·t … 5000·t + 4999 of x, the whole of W and the whole of the bias row (the
  bias vector recast to one row by the host before the call), and writes back rows 5000·t … 5000·t + 4999 of the
  result.  The scratch buffers hold the folded matrix and bias row the first point built (whatever the point), so
  entry (p, q) of the block point t writes back is the folded form at row 5000·t + p and column q.  The two
  blocks tile the array.
-/
import proofs.«121360_g12850542150406_cont_week2b_740_12_alg».proof.Proof.Gen.KernelIdeal.Value
import proofs.«121360_g12850542150406_cont_week2b_740_12_alg».proof.Proof.PointContents
import proofs.«121360_g12850542150406_cont_week2b_740_12_alg».proof.Proof.StoredAt
import proofs.«121360_g12850542150406_cont_week2b_740_12_alg».proof.Proof.Forms
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.WholeArray

open Cert.KernelIdeal Cert.KernelIdeal.Gen Cert.KernelIdeal.Value

variable (m : (ℓ : Loc nD τ sig) → Buf (Elt Ideal) ℓ) (ρ : Dev nD → PrngReg)

/-- The three argument arrays, as functions from their indices to the extended reals. -/
abbrev argX (c : Dev nD) : (⟨2, ![10000, 512]⟩ : Shape).Idx → EReal := m ((c : Thread nD τ).loc main_arg0)
abbrev argW (c : Dev nD) : (⟨2, ![512, 512]⟩ : Shape).Idx → EReal := m ((c : Thread nD τ).loc main_arg1)
abbrev argB (c : Dev nD) : (⟨1, ![512]⟩ : Shape).Idx → EReal := m ((c : Thread nD τ).loc main_arg2)

/-- The printed index maps over the grid: the row windows move with the point, the others stay. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row window's block at point t is rows 5000·t … of x. -/
theorem row_entry (c : Dev nD) (t : Fin cfg0.N) (p : Fin 5000) (k : Fin 512) (r : Fin 10000) (hr : r.val = 5000 * t.val + p.val) :
    (iblk m c 0 t : Vec Ideal S5000x512 .f32) (ix2 p k) = argX m c (ix2 r k) := by
  obtain ⟨e0, e1, -⟩ := index_facts t
  unfold iblk
  rw [View.read_apply]
  show V m c main_arg0 _ = m ((c : Thread nD τ).loc main_arg0) (ix2 r k)
  rw [V_main_arg0]
  congr 1
  funext a
  apply Fin.ext
  match a with
  | ⟨0, _⟩ => show win0_0.index t (0 : Fin 2) * 5000 + 1 * p.val = r.val; rw [e0, hr]; omega
  | ⟨1, _⟩ => show win0_0.index t (1 : Fin 2) * 512 + 1 * k.val = k.val; rw [e1]; omega

/-- The weight window's block is the whole of W, at every point. -/
theorem weight_entry (c : Dev nD) (t : Fin cfg0.N) (q k : Fin 512) :
    (iblk m c 1 t : Vec Ideal S512x512 .f32) (ix2 q k) = argW m c (ix2 q k) := by
  obtain ⟨-, -, e0, e1, -⟩ := index_facts t
  unfold iblk
  rw [View.read_apply]
  show V m c main_arg1 _ = m ((c : Thread nD τ).loc main_arg1) (ix2 q k)
  rw [V_main_arg1]
  congr 1
  funext a
  apply Fin.ext
  match a with
  | ⟨0, _⟩ => show win0_1.index t (0 : Fin 2) * 512 + 1 * q.val = q.val; rw [e0]; omega
  | ⟨1, _⟩ => show win0_1.index t (1 : Fin 2) * 512 + 1 * k.val = k.val; rw [e1]; omega

/-- The one-row array the host recasts the bias vector to, read at (0, q): the vector's entry q. -/
theorem bias_row (c : Dev nD) (q : Fin 512) :
    (V m c main_v0 : S1x512.Idx → EReal) (ix2 (0 : Fin 1) q) = argB m c (ix1 q) := by
  have e : (V m c main_v0 : S1x512.Idx → EReal)
      = shapeCast S1x512 (m ((c : Thread nD τ).loc main_arg2) : S512.Idx → EReal) shapeCasts_S512_S1x512 := by
    dsimp only [Gen.V, Gen.hostOps0]; after_results; rfl
  rw [e]
  refine (shapeCast_addUnit_apply ![512] _ _ (ix2 (0 : Fin 1) q)).trans ?_
  congr 1
  funext a
  match a with
  | ⟨0, _⟩ => rfl

/-- The bias window's block is that whole row, at every point. -/
theorem bias_entry (c : Dev nD) (t : Fin cfg0.N) (q : Fin 512) :
    (iblk m c 2 t : Vec Ideal S1x512 .f32) (ix2 (0 : Fin 1) q) = argB m c (ix1 q) := by
  obtain ⟨-, -, -, -, e0, e1, -⟩ := index_facts t
  refine Eq.trans ?_ (bias_row m c q)
  unfold iblk
  rw [View.read_apply]
  show V m c main_v0 _ = V m c main_v0 _
  congr 1
  funext a
  apply Fin.ext
  match a with
  | ⟨0, _⟩ => show win0_2.index t (0 : Fin 2) * 1 + 1 * 0 = 0; rw [e0]
  | ⟨1, _⟩ => show win0_2.index t (1 : Fin 2) * 512 + 1 * q.val = q.val; rw [e1]; omega

/-- The stored matrix at (q, k), in terms of W. -/
theorem matrix_entry (c : Dev nD) (q k : Fin 512) :
    PointContents.storedMatrix m c (ix2 q k) = argW m c (ix2 q k) * Residual.scale + (if q = k then (1 : EReal) else 0) := by
  unfold PointContents.storedMatrix
  refine (StoredAt.matrix_at (iblk m c 1 t0_0) q k).trans ?_
  rw [weight_entry m c t0_0 q k]

/-- The stored bias row at (0, q), in terms of b. -/
theorem stored_bias_entry (c : Dev nD) (q : Fin 512) :
    PointContents.storedBias m c (ix2 (0 : Fin 1) q) = argB m c (ix1 q) * Residual.scale := by
  unfold PointContents.storedBias
  refine (StoredAt.bias_at (iblk m c 2 t0_0) 0 q).trans ?_
  rw [bias_entry m c t0_0 q]

/-- WHAT POINT t WRITES BACK is block t of the folded form of the arguments. -/
theorem flushed_eq (c : Dev nD) (t : Fin cfg0.N) :
    (dats m 0 c).flushed 3 t = ((cfg0.win 3).blk t).view.read (Elt Ideal)
      (Residual.foldedForm (argX m c) (argW m c) (argB m c)) := by
  rw [Value.flushed3, PointContents.after_point]
  obtain ⟨-, -, -, -, -, -, e0, e1⟩ := index_facts t
  have hN : t.val < 2 := lt_of_lt_of_eq t.isLt (show cfg0.N = 2 from N_0)
  funext j
  obtain ⟨p, q, rfl⟩ : ∃ (p : Fin 5000) (q : Fin 512), j = ix2 p q := ⟨j 0, j 1, eq_ix2 j⟩
  have hr : 5000 * t.val + p.val < 10000 := by have := p.isLt; omega
  have hemb : ((cfg0.win 3).blk t).view.emb (ix2 p q) = ix2 (⟨5000 * t.val + p.val, hr⟩ : Fin 10000) q := by
    funext a
    apply Fin.ext
    match a with
    | ⟨0, _⟩ => show win0_3.index t (0 : Fin 2) * 5000 + 1 * p.val = 5000 * t.val + p.val; rw [e0]; omega
    | ⟨1, _⟩ => show win0_3.index t (1 : Fin 2) * 512 + 1 * q.val = q.val; rw [e1]; omega
  show k0_pay3 (iblk m c 0 t) (PointContents.storedMatrix m c) (PointContents.storedBias m c) (ix2 p q)
    = Residual.foldedForm _ _ _ (((cfg0.win 3).blk t).view.emb (ix2 p q))
  rw [hemb]
  refine (StoredAt.block_at (iblk m c 0 t) (PointContents.storedMatrix m c) (PointContents.storedBias m c) p q).trans ?_
  show _ = Residual.foldedAt _ _ _ (⟨5000 * t.val + p.val, hr⟩ : Fin 10000) q
  unfold Residual.foldedAt
  exact congrArg₂ (· + ·)
    (Finset.sum_congr rfl fun k _ => congrArg₂ (· * ·) (row_entry m c t p k ⟨5000 * t.val + p.val, hr⟩ rfl) (matrix_entry m c q k))
    (stored_bias_entry m c q)

/-- An index of the array is in point t's block iff each coordinate is in the block's range on its axis. -/
theorem mem_blk (t : Fin cfg0.N) (i : S10000x512.Idx) :
    i ∈ ((cfg0.win 3).blk t).view.set ↔ ∀ a : Fin 2, win0_3.index t a * S5000x512.size a ≤ (i a).val ∧ (i a).val < win0_3.index t a * S5000x512.size a + S5000x512.size a := by
  show i ∈ ((View.whole main_v1).slice (win0_3.rect t)).set ↔ _
  rw [View.set_slice_whole, Rect.mem_set_unit]
  exact Iff.rfl

/-- The two blocks tile the array: row r lies in the block of point r / 5000. -/
theorem cover (i : S10000x512.Idx) :
    ∃ t : Fin cfg0.N, (cfg0.win 3).flush t = true ∧ i ∈ ((cfg0.win 3).blk t).view.set := by
  have hi0 : (i 0).val < 10000 := (i 0).isLt
  have hi1 : (i 1).val < 512 := (i 1).isLt
  have hN : cfg0.N = 2 := N_0
  obtain ⟨t, ht⟩ : ∃ t : Fin cfg0.N, t.val = (i 0).val / 5000 := ⟨⟨(i 0).val / 5000, by rw [hN]; omega⟩, rfl⟩
  obtain ⟨-, -, -, -, -, -, e0, e1⟩ := index_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 512 ≤ (i 1).val ∧ (i 1).val < win0_3.index t (1 : Fin 2) * 512 + 512
    rw [e1]; omega

/-- The result array after the run: the folded form of the arguments. -/
theorem final (c : Dev nD) :
    (dats m 0 c).arrAt 3 cfg0.N
      = Residual.foldedForm (argX m c) (argW m c) (argB m c) :=
  (dats m 0 c).arrAt_eq_of_cover 3 _ (fun t _ => flushed_eq m c t) cover

/-- The kernel's run, read: the result array at the folded form, the arguments unchanged. -/
theorem run : θ_run defs (onTc (τ := τ) (main (F := Ideal))) ⟨m, fun _ => 0, ρ⟩ fun r => ∀ c : Dev nD,
      r.2.mem ((c : Thread nD τ).loc main_v1)
        = Residual.foldedForm (argX m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.WholeArray

end
-- ==== Proof.ReferenceForm.lean ====
/-
  The reference's result, read at an index, is the residual form of its arguments.

  The reference transposes W, contracts x with the transpose (so entry (r, q) of the product is Σ_k x[r,k]·W[q,k]),
  spreads the bias vector over the rows, adds, multiplies by the scale and adds x.
-/
import proofs.«121360_g12850542150406_cont_week2b_740_12_alg».proof.Proof.Gen.ReferenceIdeal.Read
import proofs.«121360_g12850542150406_cont_week2b_740_12_alg».proof.Proof.Forms
import Idealize.ShloMosaic.Lib.ValueIdx

noncomputable section

open Idealize.ShloMosaic Idealize.ShloMosaic.ValueIdx

namespace Cert.ReferenceIdeal.RefValue

open Cert.ReferenceIdeal Cert.ReferenceIdeal.Gen Cert.ReferenceIdeal.Read

/-- The reference's last stage is the residual form. -/
theorem result_eq (x : (⟨S10000x512, .f32⟩ : BufTy).Contents (Elt Ideal)) (W : (⟨S512x512, .f32⟩ : BufTy).Contents (Elt Ideal))
    (b : (⟨S512, .f32⟩ : BufTy).Contents (Elt Ideal)) :
    val_main_v7 (F := Ideal) x W b = Residual.residualForm x W b := by
  funext i
  obtain ⟨r, q, rfl⟩ : ∃ (r : Fin 10000) (q : Fin 512), i = ix2 r q := ⟨i 0, i 1, eq_ix2 i⟩
  have e1 : ∀ k : Fin 512, lidx_main_v1 (ix2 r q) k = ix2 r k := fun k => funext fun a => Fin.ext (by
    match a with
    | ⟨0, _⟩ => rfl
    | ⟨1, _⟩ => rfl)
  have e2 : ∀ k : Fin 512, idx_main_v0 (ridx_main_v1 (ix2 r q) k) = ix2 q k := fun k => funext fun a => Fin.ext (by
    match a with
    | ⟨0, _⟩ => rfl
    | ⟨1, _⟩ => rfl)
  have e3 : idx_main_v2 (idx_main_v3 (ix2 r q)) = ix1 q := funext fun a => Fin.ext (by
    match a with
    | ⟨0, _⟩ => rfl)
  rw [val_main_v7_apply, val_main_v6_apply, val_main_v5_apply, val_main_cst_apply, val_main_v4_apply, val_main_v1_apply,
    val_main_v3_apply, val_main_v2_apply]
  simp only [val_main_v0_apply, e1, e2, e3, Ideal.addf_def, Ideal.mulf_def, Ideal.ofBits_def]
  rfl

end Cert.ReferenceIdeal.RefValue

end
-- ==== Proof.lean ====
/-
  The certificate: the kernel  x ↦ x·(0.1·W + I)ᵀ + 0.1·b  against the reference  x ↦ x + 0.1·(x·Wᵀ + b),
  x of shape [10000,512], W of shape [512,512], b of shape [512], on the extended reals.

  The kernel walks the rows of x in two blocks of 5000.  At the first block it builds the matrix M = 0.1·W + I
  (the identity from a comparison of a row iota with a column iota) and the row b2 = 0.1·b in two scratch buffers
  that persist to the second block; each block's result is the block of x times Mᵀ plus b2.  So entry (i, j) of the
  kernel's result is  Σ_k x[i,k]·(W[j,k]·c + δ(j,k)) + b[j]·c  with c the f32 word of 0.1 — the folded form.  The
  reference's entry (i, j) is  x[i,j] + c·(Σ_k x[i,k]·W[j,k] + b[j])  with the same word c — the residual form.
  Under the precondition every entry of x, W and b is a real number, c is a real number, and then the two forms
  agree by distributivity: the Kronecker part of the sum picks out x[i,j] and c moves out of the rest.

  The three frames are the generated ones (the reference's is its generated run with the result dropped); the
  idealization rewrote nothing, so `preserves` is trivial; `algebraic` sets the kernel's run (the folded form)
  beside the reference's run (the residual form) and joins them by the law above.
-/
import proofs.«121360_g12850542150406_cont_week2b_740_12_alg».proof.Defs
import proofs.«121360_g12850542150406_cont_week2b_740_12_alg».proof.Proof.Gen.Kernel
import proofs.«121360_g12850542150406_cont_week2b_740_12_alg».proof.Proof.Gen.Kernel.Skeleton
import proofs.«121360_g12850542150406_cont_week2b_740_12_alg».proof.Proof.Gen.Kernel.Launch
import proofs.«121360_g12850542150406_cont_week2b_740_12_alg».proof.Proof.Gen.Kernel.Points
import proofs.«121360_g12850542150406_cont_week2b_740_12_alg».proof.Proof.Gen.Kernel.Frame
import proofs.«121360_g12850542150406_cont_week2b_740_12_alg».proof.Proof.Gen.KernelIdeal
import proofs.«121360_g12850542150406_cont_week2b_740_12_alg».proof.Proof.Gen.KernelIdeal.Skeleton
import proofs.«121360_g12850542150406_cont_week2b_740_12_alg».proof.Proof.Gen.KernelIdeal.Launch
import proofs.«121360_g12850542150406_cont_week2b_740_12_alg».proof.Proof.Gen.KernelIdeal.Points
import proofs.«121360_g12850542150406_cont_week2b_740_12_alg».proof.Proof.Gen.KernelIdeal.Frame
import proofs.«121360_g12850542150406_cont_week2b_740_12_alg».proof.Proof.Gen.ReferenceIdeal
import proofs.«121360_g12850542150406_cont_week2b_740_12_alg».proof.Proof.Gen.Pre_finite_inputs
import proofs.«121360_g12850542150406_cont_week2b_740_12_alg».proof.Proof.Gen.KernelIdeal.Value
import proofs.«121360_g12850542150406_cont_week2b_740_12_alg».proof.Proof.Gen.ReferenceIdeal.Run
import proofs.«121360_g12850542150406_cont_week2b_740_12_alg».proof.Proof.Gen.ReferenceIdeal.Read
import proofs.«121360_g12850542150406_cont_week2b_740_12_alg».proof.Proof.Forms
import proofs.«121360_g12850542150406_cont_week2b_740_12_alg».proof.Proof.FiniteInputs
import proofs.«121360_g12850542150406_cont_week2b_740_12_alg».proof.Proof.WholeArray
import proofs.«121360_g12850542150406_cont_week2b_740_12_alg».proof.Proof.ReferenceForm
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree and are real, both programs end with the residual form of the arguments: the
    kernel with the folded form, which is the residual form for real data; the reference with the residual form. -/
theorem algebraic : Cert.algebraic_KernelIdeal_ReferenceIdeal := by
  intro m ρ m' ρ' hpre hagree
  refine ⟨fun c => Cert.Residual.residualForm (Cert.KernelIdeal.WholeArray.argX m c) (Cert.KernelIdeal.WholeArray.argW m c)
    (Cert.KernelIdeal.WholeArray.argB m c), ?_, ?_⟩
  · refine (θ_run Cert.KernelIdeal.defs _ _).mono (fun _ h c => ⟨(h c).1.trans ?_, (h c).2⟩)
      (Cert.KernelIdeal.WholeArray.run m ρ)
    obtain ⟨hx, hW, hb⟩ := Cert.FiniteInputs.reals_of_pre _ _ _ (hpre c)
    exact Cert.Residual.folded_eq_residual _ _ _ hx hW hb
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, Cert.ReferenceIdeal.RefValue.result_eq, (hagree c).1, (hagree c).2.1,
      (hagree c).2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
